-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2x1250000 : Shape := ⟨2, ![2, 1250000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S100000x64 .f32) (main_arg1 : FVec F S50000x64 .f32) (main_arg2 : IVec S2x1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S100000x64 : Shape := ⟨2, ![100000, 64]⟩
abbrev S50000x64 : Shape := ⟨2, ![50000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S150000 : Shape := ⟨1, ![150000]⟩
abbrev S1250000x1 : Shape := ⟨2, ![1250000, 1]⟩
abbrev S150000x64 : Shape := ⟨2, ![150000, 64]⟩
abbrev S1250000x64 : Shape := ⟨2, ![1250000, 64]⟩
abbrev S10000x64 : Shape := ⟨2, ![10000, 64]⟩
abbrev S10000x1 : Shape := ⟨2, ![10000, 1]⟩
abbrev S5000x64 : Shape := ⟨2, ![5000, 64]⟩

abbrev nBuf : Space → Nat
  | .hbm => 95
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2x1250000, .i32⟩
  | .hbm, ⟨3, _⟩ => ⟨S1x1250000, .i32⟩
  | .hbm, ⟨4, _⟩ => ⟨S1250000, .i32⟩
  | .hbm, ⟨5, _⟩ => ⟨S1x1250000, .i32⟩
  | .hbm, ⟨6, _⟩ => ⟨S1250000, .i32⟩
  | .hbm, ⟨7, _⟩ => ⟨S_, .f32⟩
  | .hbm, ⟨8, _⟩ => ⟨S1250000, .f32⟩
  | .hbm, ⟨9, _⟩ => ⟨S_, .f32⟩
  | .hbm, ⟨10, _⟩ => ⟨S150000, .f32⟩
  | .hbm, ⟨11, _⟩ => ⟨S1250000x1, .i32⟩
  | .hbm, ⟨12, _⟩ => ⟨S150000, .f32⟩
  | .hbm, ⟨13, _⟩ => ⟨S_, .f32⟩
  | .hbm, ⟨14, _⟩ => ⟨S150000, .f32⟩
  | .hbm, ⟨15, _⟩ => ⟨S150000, .i1⟩
  | .hbm, ⟨16, _⟩ => ⟨S_, .f32⟩
  | .hbm, ⟨17, _⟩ => ⟨S150000, .f32⟩
  | .hbm, ⟨18, _⟩ => ⟨S150000, .f32⟩
  | .hbm, ⟨19, _⟩ => ⟨S150000, .f32⟩
  | .hbm, ⟨20, _⟩ => ⟨S_, .f32⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000, .f32⟩
  | .hbm, ⟨33, _⟩ => ⟨S_, .i32⟩
  | .hbm, ⟨34, _⟩ => ⟨S1250000, .i32⟩
  | .hbm, ⟨35, _⟩ => ⟨S1250000, .i1⟩
  | .hbm, ⟨36, _⟩ => ⟨S_, .i32⟩
  | .hbm, ⟨37, _⟩ => ⟨S1250000, .i32⟩
  | .hbm, ⟨38, _⟩ => ⟨S1250000, .i32⟩
  | .hbm, ⟨39, _⟩ => ⟨S1250000, .i32⟩
  | .hbm, ⟨40, _⟩ => ⟨S1250000x1, .i32⟩
  | .hbm, ⟨41, _⟩ => ⟨S1250000, .f32⟩
  | .hbm, ⟨42, _⟩ => ⟨S1250000, .f32⟩
  | .hbm, ⟨43, _⟩ => ⟨S1250000x1, .f32⟩
  | .hbm, ⟨44, _⟩ => ⟨S150000x64, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S1250000x64, .f32⟩
  | .hbm, ⟨55, _⟩ => ⟨S_, .f32⟩
  | .hbm, ⟨56, _⟩ => ⟨S150000x64, .f32⟩
  | .hbm, ⟨57, _⟩ => ⟨S1250000x1, .i32⟩
  | .hbm, ⟨58, _⟩ => ⟨S150000x64, .f32⟩
  | .hbm, ⟨59, _⟩ => ⟨S150000x64, .f32⟩
  | .hbm, ⟨60, _⟩ => ⟨S_, .i32⟩
  | .hbm, ⟨61, _⟩ => ⟨S1250000, .i32⟩
  | .hbm, ⟨62, _⟩ => ⟨S1250000, .i1⟩
  | .hbm, ⟨63, _⟩ => ⟨S_, .i32⟩
  | .hbm, ⟨64, _⟩ => ⟨S1250000, .i32⟩
  | .hbm, ⟨65, _⟩ => ⟨S1250000, .i32⟩
  | .hbm, ⟨66, _⟩ => ⟨S1250000, .i32⟩
  | .hbm, ⟨67, _⟩ => ⟨S1250000x1, .i32⟩
  | .hbm, ⟨68, _⟩ => ⟨S1250000x64, .f32⟩
  | .hbm, ⟨69, _⟩ => ⟨S1250000x64, .f32⟩
  | .hbm, ⟨70, _⟩ => ⟨S_, .f32⟩
  | .hbm, ⟨71, _⟩ => ⟨S150000x64, .f32⟩
  | .hbm, ⟨72, _⟩ => ⟨S1250000x1, .i32⟩
  | .hbm, ⟨73, _⟩ => ⟨S150000x64, .f32⟩
  | .hbm, ⟨74, _⟩ => ⟨S150000x64, .f32⟩
  | .hbm, ⟨75, _⟩ => ⟨S_, .i32⟩
  | .hbm, ⟨76, _⟩ => ⟨S1250000, .i32⟩
  | .hbm, ⟨77, _⟩ => ⟨S1250000, .i1⟩
  | .hbm, ⟨78, _⟩ => ⟨S_, .i32⟩
  | .hbm, ⟨79, _⟩ => ⟨S1250000, .i32⟩
  | .hbm, ⟨80, _⟩ => ⟨S1250000, .i32⟩
  | .hbm, ⟨81, _⟩ => ⟨S1250000, .i32⟩
  | .hbm, ⟨82, _⟩ => ⟨S1250000x1, .i32⟩
  | .hbm, ⟨83, _⟩ => ⟨S1250000x64, .f32⟩
  | .hbm, ⟨84, _⟩ => ⟨S1250000x64, .f32⟩
  | .hbm, ⟨85, _⟩ => ⟨S_, .f32⟩
  | .hbm, ⟨86, _⟩ => ⟨S150000x64, .f32⟩
  | .hbm, ⟨87, _⟩ => ⟨S1250000x1, .i32⟩
  | .hbm, ⟨88, _⟩ => ⟨S150000x64, .f32⟩
  | .hbm, ⟨89, _⟩ => ⟨S150000x64, .f32⟩
  | .hbm, ⟨90, _⟩ => ⟨S_, .f32⟩
  | .hbm, ⟨91, _⟩ => ⟨S150000x64, .f32⟩
  | .hbm, ⟨92, _⟩ => ⟨S150000x64, .f32⟩
  | .hbm, ⟨93, _⟩ => ⟨S100000x64, .f32⟩
  | .hbm, ⟨94, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S10000x64, .f32⟩
  | .local _ .vmem, ⟨17, _⟩ => ⟨S10000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S10000x64, .f32⟩
  | .local _ .vmem, ⟨25, _⟩ => ⟨S10000x64, .f32⟩
  | .local _ .vmem, ⟨26, _⟩ => ⟨S10000x1, .f32⟩
  | .local _ .vmem, ⟨27, _⟩ => ⟨S10000x1, .f32⟩
  | .local _ .vmem, ⟨28, _⟩ => ⟨S10000x64, .f32⟩
  | .local _ .vmem, ⟨29, _⟩ => ⟨S10000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_v55 : Ref sig .tc := ⟨.hbm, 76, rfl⟩
abbrev main_v56 : Ref sig .tc := ⟨.hbm, 77, rfl⟩
abbrev main_c_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S150000 : S_.BroadcastsInDim S150000 (![] : Fin 0 → Fin S150000.rank)
  bcast_S1250000_S1250000x1_0 : S1250000.BroadcastsInDim S1250000x1 (![0] : Fin 1 → Fin S1250000x1.rank)
  concatenates_S100000x64_S50000x64_S150000x64_d0 : Shape.Concatenates [S100000x64, S50000x64] S150000x64 0
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S100000x64_0_0 : S150000x64.Slices ![0, 0] S100000x64
  slices_S150000x64_S50000x64_100000_0 : S150000x64.Slices ![100000, 0] S50000x64
  scatter_S150000_S1250000x1_S1250000_n_0_0_1_wf : ScatterDims.WF S150000 S1250000x1 S1250000 [] [0] [0] 1
  gather_S150000_S1250000x1_S1250000_n_0_n_n_0_1_1_wf : GatherDims.WF S150000 S1250000x1 S1250000 [] [0] [] [0] [] 1 ![1]
  gather_S150000x64_S1250000x1_S1250000x64_1_0_n_n_0_1_164_wf : GatherDims.WF S150000x64 S1250000x1 S1250000x64 [1] [0] [] [0] [] 1 ![1, 64]
  scatter_S150000x64_S1250000x1_S1250000x64_1_0_0_1_wf : ScatterDims.WF S150000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1250000x1.size a
  hwx0_1 : ∀ i : grid0.Coords, EltTy.bits .f32 = 32 ∨ (Rect.block (s := S1250000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1250000x64.size a
  hwx0_2 : ∀ i : grid0.Coords, EltTy.bits .f32 = 32 ∨ (Rect.block (s := S1250000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S150000x64.size a
  hwx1_1 : ∀ i : grid1.Coords, EltTy.bits .f32 = 32 ∨ (Rect.block (s := S150000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S150000x64.size a
  hwx1_2 : ∀ i : grid1.Coords, EltTy.bits .f32 = 32 ∨ (Rect.block (s := S150000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1250000x64.size a
  hwx2_0 : ∀ i : grid2.Coords, EltTy.bits .f32 = 32 ∨ (Rect.block (s := S1250000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1250000x1.size a
  hwx2_1 : ∀ i : grid2.Coords, EltTy.bits .f32 = 32 ∨ (Rect.block (s := S1250000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1250000x64.size a
  hwx2_2 : ∀ i : grid2.Coords, EltTy.bits .f32 = 32 ∨ (Rect.block (s := S1250000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S150000x64.size a
  hwx3_2 : ∀ i : grid3.Coords, EltTy.bits .f32 = 32 ∨ (Rect.block (s := S150000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1250000x64.size a
  hwx4_0 : ∀ i : grid4.Coords, EltTy.bits .f32 = 32 ∨ (Rect.block (s := S1250000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1250000x1.size a
  hwx4_1 : ∀ i : grid4.Coords, EltTy.bits .f32 = 32 ∨ (Rect.block (s := S1250000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1250000x64.size a
  hwx4_2 : ∀ i : grid4.Coords, EltTy.bits .f32 = 32 ∨ (Rect.block (s := S1250000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S150000x64.size a
  hwx5_0 : ∀ i : grid5.Coords, EltTy.bits .f32 = 32 ∨ (Rect.block (s := S150000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S150000x64.size a
  hwx5_1 : ∀ i : grid5.Coords, EltTy.bits .f32 = 32 ∨ (Rect.block (s := S150000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S150000x64.size a
  hwx5_2 : ∀ i : grid5.Coords, EltTy.bits .f32 = 32 ∨ (Rect.block (s := S150000x64) S5000x64.size (cc5_transform_2 i) (hinb5_2 i)).WholeWords (EltTy.packing .f32)

variable [Facts₀]

def scatter_S150000_S1250000x1_S1250000_n_0_0_1 : ScatterDims S150000 S1250000x1 S1250000 where
  updateWindowDims := []
  insertedWindowDims := [0]
  scatterDimsToOperandDims := [0]
  indexVectorDim := 1
  wf := scatter_S150000_S1250000x1_S1250000_n_0_0_1_wf
def gather_S150000_S1250000x1_S1250000_n_0_n_n_0_1_1 : GatherDims S150000 S1250000x1 S1250000 where
  offsetDims := []
  collapsedSliceDims := [0]
  operandBatchingDims := []
  startIndicesBatchingDims := []
  startIndexMap := [0]
  indexVectorDim := 1
  sliceSizes := ![1]
  wf := gather_S150000_S1250000x1_S1250000_n_0_n_n_0_1_1_wf
def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf

abbrev win0_0 : Pipeline.Window sig grid0 :=
  Pipeline.Window.ofSpec (Memref.whole main_v37) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S150000 : Shape := ⟨1, ![150000]⟩
abbrev S1250000x1 : Shape := ⟨2, ![1250000, 1]⟩
abbrev S150000x64 : Shape := ⟨2, ![150000, 64]⟩
abbrev S1250000x64 : Shape := ⟨2, ![1250000, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2x1250000, .i32⟩
  | .hbm, ⟨3, _⟩ => ⟨S1x1250000, .i32⟩
  | .hbm, ⟨4, _⟩ => ⟨S1250000, .i32⟩
  | .hbm, ⟨5, _⟩ => ⟨S1x1250000, .i32⟩
  | .hbm, ⟨6, _⟩ => ⟨S1250000, .i32⟩
  | .hbm, ⟨7, _⟩ => ⟨S_, .f32⟩
  | .hbm, ⟨8, _⟩ => ⟨S1250000, .f32⟩
  | .hbm, ⟨9, _⟩ => ⟨S_, .f32⟩
  | .hbm, ⟨10, _⟩ => ⟨S150000, .f32⟩
  | .hbm, ⟨11, _⟩ => ⟨S1250000x1, .i32⟩
  | .hbm, ⟨12, _⟩ => ⟨S150000, .f32⟩
  | .hbm, ⟨13, _⟩ => ⟨S_, .f32⟩
  | .hbm, ⟨14, _⟩ => ⟨S150000, .f32⟩
  | .hbm, ⟨15, _⟩ => ⟨S150000, .i1⟩
  | .hbm, ⟨16, _⟩ => ⟨S_, .f32⟩
  | .hbm, ⟨17, _⟩ => ⟨S150000, .f32⟩
  | .hbm, ⟨18, _⟩ => ⟨S150000, .f32⟩
  | .hbm, ⟨19, _⟩ => ⟨S150000, .f32⟩
  | .hbm, ⟨20, _⟩ => ⟨S_, .f32⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000, .f32⟩
  | .hbm, ⟨33, _⟩ => ⟨S_, .i32⟩
  | .hbm, ⟨34, _⟩ => ⟨S1250000, .i32⟩
  | .hbm, ⟨35, _⟩ => ⟨S1250000, .i1⟩
  | .hbm, ⟨36, _⟩ => ⟨S_, .i32⟩
  | .hbm, ⟨37, _⟩ => ⟨S1250000, .i32⟩
  | .hbm, ⟨38, _⟩ => ⟨S1250000, .i32⟩
  | .hbm, ⟨39, _⟩ => ⟨S1250000, .i32⟩
  | .hbm, ⟨40, _⟩ => ⟨S1250000x1, .i32⟩
  | .hbm, ⟨41, _⟩ => ⟨S1250000, .f32⟩
  | .hbm, ⟨42, _⟩ => ⟨S1250000, .f32⟩
  | .hbm, ⟨43, _⟩ => ⟨S150000x64, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000x64, .f32⟩
  | .hbm, ⟨53, _⟩ => ⟨S1250000x1, .f32⟩
  | .hbm, ⟨54, _⟩ => ⟨S1250000x64, .f32⟩
  | .hbm, ⟨55, _⟩ => ⟨S1250000x64, .f32⟩
  | .hbm, ⟨56, _⟩ => ⟨S_, .f32⟩
  | .hbm, ⟨57, _⟩ => ⟨S150000x64, .f32⟩
  | .hbm, ⟨58, _⟩ => ⟨S1250000x1, .i32⟩
  | .hbm, ⟨59, _⟩ => ⟨S150000x64, .f32⟩
  | .hbm, ⟨60, _⟩ => ⟨S150000x64, .f32⟩
  | .hbm, ⟨61, _⟩ => ⟨S_, .i32⟩
  | .hbm, ⟨62, _⟩ => ⟨S1250000, .i32⟩
  | .hbm, ⟨63, _⟩ => ⟨S1250000, .i1⟩
  | .hbm, ⟨64, _⟩ => ⟨S_, .i32⟩
  | .hbm, ⟨65, _⟩ => ⟨S1250000, .i32⟩
  | .hbm, ⟨66, _⟩ => ⟨S1250000, .i32⟩
  | .hbm, ⟨67, _⟩ => ⟨S1250000, .i32⟩
  | .hbm, ⟨68, _⟩ => ⟨S1250000x1, .i32⟩
  | .hbm, ⟨69, _⟩ => ⟨S1250000x64, .f32⟩
  | .hbm, ⟨70, _⟩ => ⟨S1250000x1, .f32⟩
  | .hbm, ⟨71, _⟩ => ⟨S1250000x64, .f32⟩
  | .hbm, ⟨72, _⟩ => ⟨S1250000x64, .f32⟩
  | .hbm, ⟨73, _⟩ => ⟨S_, .f32⟩
  | .hbm, ⟨74, _⟩ => ⟨S150000x64, .f32⟩
  | .hbm, ⟨75, _⟩ => ⟨S1250000x1, .i32⟩
  | .hbm, ⟨76, _⟩ => ⟨S150000x64, .f32⟩
  | .hbm, ⟨77, _⟩ => ⟨S150000x64, .f32⟩
  | .hbm, ⟨78, _⟩ => ⟨S_, .i32⟩
  | .hbm, ⟨79, _⟩ => ⟨S1250000, .i32⟩
  | .hbm, ⟨80, _⟩ => ⟨S1250000, .i1⟩
  | .hbm, ⟨81, _⟩ => ⟨S_, .i32⟩
  | .hbm, ⟨82, _⟩ => ⟨S1250000, .i32⟩
  | .hbm, ⟨83, _⟩ => ⟨S1250000, .i32⟩
  | .hbm, ⟨84, _⟩ => ⟨S1250000, .i32⟩
  | .hbm, ⟨85, _⟩ => ⟨S1250000x1, .i32⟩
  | .hbm, ⟨86, _⟩ => ⟨S1250000x64, .f32⟩
  | .hbm, ⟨87, _⟩ => ⟨S1250000x1, .f32⟩
  | .hbm, ⟨88, _⟩ => ⟨S1250000x64, .f32⟩
  | .hbm, ⟨89, _⟩ => ⟨S1250000x64, .f32⟩
  | .hbm, ⟨90, _⟩ => ⟨S_, .f32⟩
  | .hbm, ⟨91, _⟩ => ⟨S150000x64, .f32⟩
  | .hbm, ⟨92, _⟩ => ⟨S1250000x1, .i32⟩
  | .hbm, ⟨93, _⟩ => ⟨S150000x64, .f32⟩
  | .hbm, ⟨94, _⟩ => ⟨S150000x64, .f32⟩
  | .hbm, ⟨95, _⟩ => ⟨S_, .f32⟩
  | .hbm, ⟨96, _⟩ => ⟨S150000x64, .f32⟩
  | .hbm, ⟨97, _⟩ => ⟨S150000x64, .f32⟩
  | .hbm, ⟨98, _⟩ => ⟨S100000x64, .f32⟩
  | .hbm, ⟨99, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_13 : Ref sig .tc := ⟨.hbm, 78, rfl⟩
abbrev main_v58 : Ref sig .tc := ⟨.hbm, 79, rfl⟩
abbrev main_v59 : Ref sig .tc := ⟨.hbm, 80, rfl⟩
abbrev main_c_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S150000 : S_.BroadcastsInDim S150000 (![] : Fin 0 → Fin S150000.rank)
  bcast_S1250000_S1250000x1_0 : S1250000.BroadcastsInDim S1250000x1 (![0] : Fin 1 → Fin S1250000x1.rank)
  concatenates_S100000x64_S50000x64_S150000x64_d0 : Shape.Concatenates [S100000x64, S50000x64] S150000x64 0
  bcast_S1250000x1_S1250000x64_0_1 : S1250000x1.BroadcastsInDim S1250000x64 (![0, 1] : Fin 2 → Fin S1250000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  scatter_S150000_S1250000x1_S1250000_n_0_0_1_wf : ScatterDims.WF S150000 S1250000x1 S1250000 [] [0] [0] 1
  gather_S150000_S1250000x1_S1250000_n_0_n_n_0_1_1_wf : GatherDims.WF S150000 S1250000x1 S1250000 [] [0] [] [0] [] 1 ![1]
  gather_S150000x64_S1250000x1_S1250000x64_1_0_n_n_0_1_164_wf : GatherDims.WF S150000x64 S1250000x1 S1250000x64 [1] [0] [] [0] [] 1 ![1, 64]
  scatter_S150000x64_S1250000x1_S1250000x64_1_0_0_1_wf : ScatterDims.WF S150000x64 S1250000x1 S1250000x64 [1] [0] [0] 1

variable [Facts₀]

def scatter_S150000_S1250000x1_S1250000_n_0_0_1 : ScatterDims S150000 S1250000x1 S1250000 where
  updateWindowDims := []
  insertedWindowDims := [0]
  scatterDimsToOperandDims := [0]
  indexVectorDim := 1
  wf := scatter_S150000_S1250000x1_S1250000_n_0_0_1_wf
def gather_S150000_S1250000x1_S1250000_n_0_n_n_0_1_1 : GatherDims S150000 S1250000x1 S1250000 where
  offsetDims := []
  collapsedSliceDims := [0]
  operandBatchingDims := []
  startIndicesBatchingDims := []
  startIndexMap := [0]
  indexVectorDim := 1
  sliceSizes := ![1]
  wf := gather_S150000_S1250000x1_S1250000_n_0_n_n_0_1_1_wf
def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf

class Facts : Prop extends Facts₀ where

variable [Facts]
-- ==== Proof.Propagation.lean ====
/-
  LightGCN propagation over a fixed edge list, as pure functions of the argument arrays (kept apart from any program's run).

  The graph has 150000 nodes — the 100000 users' rows stacked on the 50000 items' rows, 64 features each — and 1250000 edges
  `(src k, dst k)`. With `deg v` the number of edges into `v` and `dis v = deg v ^ (-1/2)` (zero for a node no edge enters), an edge
  weighs `w k = dis (src k) * dis (dst k)`. One hop sends every node's row along its out-edges, each copy scaled by the edge's
  weight, and adds up what arrives: `hop x v = Σ_{k : dst k = v} x (src k) * w k`. The result is the mean of the start array and
  of its first three hops, `(x + hop x + hop (hop x) + hop (hop (hop x))) / 4`, cut back into the users' rows and the items' rows.

  Each definition below is that sentence spelt with the array operations both programs are printed in; `hop` is kept as ONE function, so that
  three hops are three applications of it and nothing here is ever read element by element.
-/
import proofs.«110621_j80556406604525_1_alg».proof.Proof.Gen.KernelIdeal

noncomputable section

namespace Cert.KernelIdeal.Propagation

open Idealize.ShloMosaic Cert.KernelIdeal Cert.KernelIdeal.Gen

variable {F : FTy → Type} [FloatOps F]

/-- A one-column table stretches along the 64 features of a row. -/
theorem bcast_S1250000x1_S1250000x64_0_1 : S1250000x1.BroadcastsInDim S1250000x64 (![0, 1] : Fin 2 → Fin S1250000x64.rank) := by decide

/-- Row `0` of the edge list: where each edge starts. -/
def srcIds (e : (⟨S2x1250000, .i32⟩ : BufTy).Contents (Elt F)) : (⟨S1250000, .i32⟩ : BufTy).Contents (Elt F) :=
  shapeCast S1250000 (extractStridedSlice S1x1250000 ![0, 0] e slices_S2x1250000_S1x1250000_0_0) shapeCasts_S1x1250000_S1250000

/-- Row `1` of the edge list: where each edge ends. -/
def dstIds (e : (⟨S2x1250000, .i32⟩ : BufTy).Contents (Elt F)) : (⟨S1250000, .i32⟩ : BufTy).Contents (Elt F) :=
  shapeCast S1250000 (extractStridedSlice S1x1250000 ![1, 0] e slices_S2x1250000_S1x1250000_1_0) shapeCasts_S1x1250000_S1250000

/-- A node number below zero counts back from the last node. -/
def wrap (v : (⟨S1250000, .i32⟩ : BufTy).Contents (Elt F)) : (⟨S1250000, .i32⟩ : BufTy).Contents (Elt F) :=
  select (cmpi .slt v (broadcastInDim S1250000 ![] bcast_S_S1250000 (constantI S_ 32 0#32)))
    (addi v (broadcastInDim S1250000 ![] bcast_S_S1250000 (constantI S_ 32 150000#32))) v

/-- A list of node numbers as a one-column table, the form a gather or a scatter takes its indices in. -/
def col (v : (⟨S1250000, .i32⟩ : BufTy).Contents (Elt F)) : (⟨S1250000x1, .i32⟩ : BufTy).Contents (Elt F) :=
  broadcastInDim S1250000x1 ![0] bcast_S1250000_S1250000x1_0 v

/-- `deg v`: a one added at `dst k` for every edge `k`. -/
def deg (e : (⟨S2x1250000, .i32⟩ : BufTy).Contents (Elt F)) : (⟨S150000, .f32⟩ : BufTy).Contents (Elt F) :=
  Host.scatterAdd scatter_S150000_S1250000x1_S1250000_n_0_0_1
    (broadcastInDim S150000 ![] bcast_S_S150000 (constant S_ .f32 0x00000000#32)) (col (F := F) (dstIds (F := F) e))
    (broadcastInDim S1250000 ![] bcast_S_S1250000 (constant S_ .f32 0x3F800000#32))

/-- `dis v = (max (deg v) 1) ^ (-1/2)` where `deg v > 0`, and `0` elsewhere. -/
def dis (e : (⟨S2x1250000, .i32⟩ : BufTy).Contents (Elt F)) : (⟨S150000, .f32⟩ : BufTy).Contents (Elt F) :=
  select (cmpf (F := F) .ogt (deg (F := F) e) (broadcastInDim S150000 ![] bcast_S_S150000 (constant S_ .f32 0x00000000#32)))
    (Host.rsqrt (maximumf (deg (F := F) e) (broadcastInDim S150000 ![] bcast_S_S150000 (constant S_ .f32 0x3F800000#32))))
    (broadcastInDim S150000 ![] bcast_S_S150000 (constant S_ .f32 0x00000000#32))

/-- The edges' weights `w k = dis (src k) * dis (dst k)`. -/
def weights (e : (⟨S2x1250000, .i32⟩ : BufTy).Contents (Elt F)) : (⟨S1250000, .f32⟩ : BufTy).Contents (Elt F) :=
  mulf (Host.gather gather_S150000_S1250000x1_S1250000_n_0_n_n_0_1_1 (dis (F := F) e) (col (F := F) (wrap (F := F) (srcIds (F := F) e))))
    (Host.gather gather_S150000_S1250000x1_S1250000_n_0_n_n_0_1_1 (dis (F := F) e) (col (F := F) (wrap (F := F) (dstIds (F := F) e))))

/-- The weights as a one-column table: one weight per edge, to be spread along that edge's row. -/
def weightCol (e : (⟨S2x1250000, .i32⟩ : BufTy).Contents (Elt F)) : (⟨S1250000x1, .f32⟩ : BufTy).Contents (Elt F) :=
  broadcastInDim S1250000x1 ![0] bcast_S1250000_S1250000x1_0 (weights (F := F) e)

/-- The users' rows stacked on the items' rows. -/
def nodes (a0 : (⟨S100000x64, .f32⟩ : BufTy).Contents (Elt F)) (a1 : (⟨S50000x64, .f32⟩ : BufTy).Contents (Elt F)) :
    (⟨S150000x64, .f32⟩ : BufTy).Contents (Elt F) :=
  concatenate S150000x64 0 [⟨S100000x64, a0⟩, ⟨S50000x64, a1⟩] concatenates_S100000x64_S50000x64_S150000x64_d0

/-- What travels along the edges: row `src k` of `x` for every edge `k`. -/
def sent (e : (⟨S2x1250000, .i32⟩ : BufTy).Contents (Elt F)) (x : (⟨S150000x64, .f32⟩ : BufTy).Contents (Elt F)) :
    (⟨S1250000x64, .f32⟩ : BufTy).Contents (Elt F) :=
  Host.gather gather_S150000x64_S1250000x1_S1250000x64_1_0_n_n_0_1_164 x (col (F := F) (wrap (F := F) (srcIds (F := F) e)))

/-- The rows that travel, each scaled by its edge's weight. -/
def scaled (x : (⟨S1250000x64, .f32⟩ : BufTy).Contents (Elt F)) (w : (⟨S1250000x1, .f32⟩ : BufTy).Contents (Elt F)) :
    (⟨S1250000x64, .f32⟩ : BufTy).Contents (Elt F) :=
  mulf x (broadcastInDim S1250000x64 ![0, 1] bcast_S1250000x1_S1250000x64_0_1 w)

/-- What arrives: the scaled rows added up at `dst k`. -/
def arrive (e : (⟨S2x1250000, .i32⟩ : BufTy).Contents (Elt F)) (msg : (⟨S1250000x64, .f32⟩ : BufTy).Contents (Elt F)) :
    (⟨S150000x64, .f32⟩ : BufTy).Contents (Elt F) :=
  Host.scatterAdd scatter_S150000x64_S1250000x1_S1250000x64_1_0_0_1
    (broadcastInDim S150000x64 ![] bcast_S_S150000x64 (constant S_ .f32 0x00000000#32)) (col (F := F) (dstIds (F := F) e)) msg

/-- One hop: `hop x v = Σ_{k : dst k = v} x (src k) * w k`. -/
def hop (e : (⟨S2x1250000, .i32⟩ : BufTy).Contents (Elt F)) (x : (⟨S150000x64, .f32⟩ : BufTy).Contents (Elt F)) :
    (⟨S150000x64, .f32⟩ : BufTy).Contents (Elt F) :=
  arrive (F := F) e (scaled (F := F) (sent (F := F) e x) (weightCol (F := F) e))

/-- The mean of the start array and its first three hops. -/
def mean (a0 : (⟨S100000x64, .f32⟩ : BufTy).Contents (Elt F)) (a1 : (⟨S50000x64, .f32⟩ : BufTy).Contents (Elt F))
    (e : (⟨S2x1250000, .i32⟩ : BufTy).Contents (Elt F)) : (⟨S150000x64, .f32⟩ : BufTy).Contents (Elt F) :=
  Host.divf
    (addf (addf (addf (nodes (F := F) a0 a1) (hop (F := F) e (nodes (F := F) a0 a1)))
      (hop (F := F) e (hop (F := F) e (nodes (F := F) a0 a1))))
      (hop (F := F) e (hop (F := F) e (hop (F := F) e (nodes (F := F) a0 a1)))))
    (broadcastInDim S150000x64 ![] bcast_S_S150000x64 (constant S_ .f32 0x40800000#32))

/-- The users' rows of the mean. -/
def users (a0 : (⟨S100000x64, .f32⟩ : BufTy).Contents (Elt F)) (a1 : (⟨S50000x64, .f32⟩ : BufTy).Contents (Elt F))
    (e : (⟨S2x1250000, .i32⟩ : BufTy).Contents (Elt F)) : (⟨S100000x64, .f32⟩ : BufTy).Contents (Elt F) :=
  extractStridedSlice S100000x64 ![0, 0] (mean (F := F) a0 a1 e) slices_S150000x64_S100000x64_0_0

/-- The items' rows of the mean. -/
def items (a0 : (⟨S100000x64, .f32⟩ : BufTy).Contents (Elt F)) (a1 : (⟨S50000x64, .f32⟩ : BufTy).Contents (Elt F))
    (e : (⟨S2x1250000, .i32⟩ : BufTy).Contents (Elt F)) : (⟨S50000x64, .f32⟩ : BufTy).Contents (Elt F) :=
  extractStridedSlice S50000x64 ![100000, 0] (mean (F := F) a0 a1 e) slices_S150000x64_S50000x64_100000_0

end Cert.KernelIdeal.Propagation

end
-- ==== Proof.RefSpec.lean ====
/-
  The reference's two results in the vocabulary of `Propagation`.

  The reference computes the same mean with array operations only: where the kernel launches a scaling call the reference multiplies the
  travelling rows by the weights' column spread along the 64 features, and where the kernel launches an adding call it adds the two arrays. Its
  result term is therefore, operation for operation, `Propagation.users` (and `Propagation.items`) of its own arguments: the definitions
  of `Propagation` unfolded. The two programs' shapes and dimension records are separate constants with the same literal values.
-/
import proofs.«110621_j80556406604525_1_alg».proof.Proof.RefRun
import proofs.«110621_j80556406604525_1_alg».proof.Proof.Propagation

noncomputable section

namespace Cert.ReferenceIdeal.Spec

open Idealize.ShloMosaic Idealize.ShloMosaic.TcCoe Idealize.SL.Sem
open Cert.ReferenceIdeal

variable {F : FTy → Type} [FloatOps F]

set_option maxRecDepth 16384 in
/-- The reference's first result is the users' rows of the mean. -/
theorem users_eq (m : (ℓ : Loc nD τ sig) → Buf (Elt F) ℓ) (c : Dev nD) :
    Cert.ReferenceIdeal.ValueP.res_main_v74 m c
      = Cert.KernelIdeal.Propagation.users (F := F) (m ((c.tc : Thread nD τ).loc main_arg0)) (m ((c.tc : Thread nD τ).loc main_arg1))
          (m ((c.tc : Thread nD τ).loc main_arg2)) := by
  unfold Cert.ReferenceIdeal.ValueP.res_main_v74
  rfl

set_option maxRecDepth 16384 in
/-- The reference's second result is the items' rows of the mean. -/
theorem items_eq (m : (ℓ : Loc nD τ sig) → Buf (Elt F) ℓ) (c : Dev nD) :
    Cert.ReferenceIdeal.ValueP.res_main_v75 m c
      = Cert.KernelIdeal.Propagation.items (F := F) (m ((c.tc : Thread nD τ).loc main_arg0)) (m ((c.tc : Thread nD τ).loc main_arg1))
          (m ((c.tc : Thread nD τ).loc main_arg2)) := by
  unfold Cert.ReferenceIdeal.ValueP.res_main_v75
  rfl

end Cert.ReferenceIdeal.Spec

end
-- ==== Proof.Results.lean ====
/-
  The idealized kernel's whole run with its two results NAMED.

  @main is fifteen segments: seven stretches of host operations and, between them, the six calls. The contents of every buffer
  at each boundary are a fold from the launch memory: a stretch applies its operations' functions (`StableHlo.after`), a call leaves its
  output array at what its blocks wrote and everything else as it was. So after the last stretch every buffer of a core, the two
  result buffers among them, holds the fold's last value `W15`; and the three argument arrays, which nothing writes, hold what they were
  launched with. This is the launch theorem for a line of segments applied to this program's segments, read at the result buffers as well
  as at the arguments.
-/
import proofs.«110621_j80556406604525_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the users' rows and the
    items' rows of the result at the last boundary's contents and the three arguments as launched. -/
theorem run : θ_run defs (onTc (τ := τ) (main (F := F))) ⟨m, fun _ => 0, ρ⟩ (fun r => ∀ c : Dev nD,
      r.2.mem ((c.tc : Thread nD τ).loc main_v69) = W15 m ρ c (Proc.devRef .tc main_v69)
      ∧ r.2.mem ((c.tc : Thread nD τ).loc main_v70) = W15 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v69 (by decide)),
       h c _ (mem_uc main_v70 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c)⟩)

end Cert.KernelIdeal.Results

end
-- ==== Proof.Entry.lean ====
/-
  What the host operations before the first call leave behind, in the vocabulary of `Propagation`.

  Before hop 1's scaling call @main computes, from the edge list alone, the edges' sources and destinations and the one-column table of
  weights; stacks the users' rows on the items' rows; and gathers the rows that travel along the edges. Each of these is the
  composition of the operations that produce it applied to the launch contents of the arguments, and that composition is, read off the
  program's text, the corresponding definition of `Propagation`.
-/
import proofs.«110621_j80556406604525_1_alg».proof.Proof.Gen.KernelIdeal.Frame
import proofs.«110621_j80556406604525_1_alg».proof.Proof.Propagation
import Idealize.ShloMosaic.Lib.StableHlo.Run

noncomputable section

namespace Cert.KernelIdeal.Entry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The edge list a core was launched with. -/
abbrev edges (c : Dev nD) : (⟨S2x1250000, .i32⟩ : BufTy).Contents (Elt F) := m ((c : Thread nD τ).loc main_arg2)

/-- The start array: the launched users' rows on the launched items' rows. -/
abbrev rows0 (c : Dev nD) : (⟨S150000x64, .f32⟩ : BufTy).Contents (Elt F) :=
  Propagation.nodes (F := F) (m ((c : Thread nD τ).loc main_arg0)) (m ((c : Thread nD τ).loc main_arg1))

/-- The start array after one, two and three hops. -/
abbrev rows1 (c : Dev nD) : (⟨S150000x64, .f32⟩ : BufTy).Contents (Elt F) := Propagation.hop (F := F) (edges m c) (rows0 m c)
abbrev rows2 (c : Dev nD) : (⟨S150000x64, .f32⟩ : BufTy).Contents (Elt F) := Propagation.hop (F := F) (edges m c) (rows1 m c)
abbrev rows3 (c : Dev nD) : (⟨S150000x64, .f32⟩ : BufTy).Contents (Elt F) := Propagation.hop (F := F) (edges m c) (rows2 m c)

/-- Where each edge starts. -/
theorem src_ids (c : Dev nD) : W3 m ρ c (Proc.devRef .tc main_v1) = Propagation.srcIds (F := F) (edges m c) := by
  show StableHlo.after hostOps0_2 (StableHlo.after hostOps0_1 (StableHlo.after hostOps0 (W0 m ρ c))) (Proc.devRef .tc main_v1) = _
  dsimp only [hostOps0, hostOps0_1, hostOps0_2]
  after_results_simp
  rfl

/-- Where each edge ends. -/
theorem dst_ids (c : Dev nD) : W3 m ρ c (Proc.devRef .tc main_v3) = Propagation.dstIds (F := F) (edges m c) := by
  show StableHlo.after hostOps0_2 (StableHlo.after hostOps0_1 (StableHlo.after hostOps0 (W0 m ρ c))) (Proc.devRef .tc main_v3) = _
  dsimp only [hostOps0, hostOps0_1, hostOps0_2]
  after_results_simp
  rfl

/-- The edges' weights, one per row of a one-column table. -/
theorem weight_col (c : Dev nD) : W3 m ρ c (Proc.devRef .tc main_v29) = Propagation.weightCol (F := F) (edges m c) := by
  show StableHlo.after hostOps0_2 (StableHlo.after hostOps0_1 (StableHlo.after hostOps0 (W0 m ρ c))) (Proc.devRef .tc main_v29) = _
  dsimp only [hostOps0, hostOps0_1, hostOps0_2]
  after_results_simp
  rfl

/-- The start array. -/
theorem start_rows (c : Dev nD) : W3 m ρ c (Proc.devRef .tc main_v30) = rows0 m c := by
  show StableHlo.after hostOps0_2 (StableHlo.after hostOps0_1 (StableHlo.after hostOps0 (W0 m ρ c))) (Proc.devRef .tc main_v30) = _
  dsimp only [hostOps0, hostOps0_1, hostOps0_2]
  after_results_simp
  rfl

/-- The start array's rows that travel along the edges. -/
theorem sent0 (c : Dev nD) : W3 m ρ c (Proc.devRef .tc main_v37) = Propagation.sent (F := F) (edges m c) (rows0 m c) := by
  show StableHlo.after hostOps0_2 (StableHlo.after hostOps0_1 (StableHlo.after hostOps0 (W0 m ρ c))) (Proc.devRef .tc main_v37) = _
  dsimp only [hostOps0, hostOps0_1, hostOps0_2]
  after_results_simp
  rfl

end Cert.KernelIdeal.Entry

end
-- ==== Proof.Scale0.lean ====
/-
  Hop 1's messages: what the scaling call leaves in its output array, as ONE function of the two arrays it reads.

  The call walks the 1250000 edges in 125 blocks of 10000 rows. At block `t` it loads rows `10000 t … 10000 t + 9999` of the
  travelling rows (all 64 features) and of the one-column table of weights, multiplies every feature of a row by that row's weight, and
  writes the block back to the same rows of the output. A block's element `(r, f)` is therefore element `(10000 t + r, f)` of
  `Propagation.scaled x w`, the blocks cover every row, and the output array ends holding `Propagation.scaled x w` whatever it held before.
-/
import proofs.«110621_j80556406604525_1_alg».proof.Proof.Gen.KernelIdeal.Frame
import proofs.«110621_j80556406604525_1_alg».proof.Proof.Propagation
import Idealize.ShloMosaic.Lib.Pipeline.Value

noncomputable section

namespace Cert.KernelIdeal.Scale0

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One element of what the body stores: the row's entry times the row's weight. -/
theorem pay_apply (x0 : Vec F S10000x64 .f32) (x1 : Vec F S10000x1 .f32) (j : S10000x64.Idx) (k : S10000x1.Idx)
    (hk0 : (k 0).val = (j 0).val) (hk1 : (k 1).val = 0) :
    k0_pay1 x0 x1 j = FloatOps.mulf (x0 j) (x1 k) := by
  unfold k0_pay1
  show FloatOps.mulf (shapeCast S10000x64 x0 shapeCasts_S10000x64_S10000x64 j)
    (broadcastTo S10000x64 (shapeCast S10000x1 x1 shapeCasts_S10000x1_S10000x1) broadcasts_S10000x1_S10000x64 j) = _
  rw [shapeCast_self, shapeCast_self]
  rw [broadcastTo_apply x1 broadcasts_S10000x1_S10000x64 j k (fun a => by
    match a with
    | ⟨0, _⟩ => show (k 0).val = if (10000 : Nat) = 1 then 0 else (j 0).val; rw [if_neg (by decide)]; exact hk0
    | ⟨1, _⟩ => show (k 1).val = if (1 : Nat) = 1 then 0 else (j 1).val; rw [if_pos rfl]; exact hk1)]

/-- One element of the whole array of messages: the same product, at the array's own row. -/
theorem scaled_apply (x : FVec F S1250000x64 .f32) (w : FVec F S1250000x1 .f32) (i : S1250000x64.Idx) (k : S1250000x1.Idx)
    (hk0 : (k 0).val = (i 0).val) (hk1 : (k 1).val = 0) :
    Propagation.scaled (F := F) x w i = FloatOps.mulf (x i) (w k) := by
  unfold Propagation.scaled
  show FloatOps.mulf (x i) (broadcastInDim S1250000x64 ![0, 1] Propagation.bcast_S1250000x1_S1250000x64_0_1 w i) = _
  rw [broadcastInDim_apply ![0, 1] Propagation.bcast_S1250000x1_S1250000x64_0_1 w i k (fun a => by
    match a with
    | ⟨0, _⟩ => show (k 0).val = if (1250000 : Nat) = 1 then 0 else (i 0).val; rw [if_neg (by decide)]; exact hk0
    | ⟨1, _⟩ => show (k 1).val = if (1 : Nat) = 1 then 0 else (i 1).val; rw [if_pos rfl]; exact hk1)]

/-- Every window of the call moves with the grid point: block `t` along the rows, the one block along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole array of messages. -/
theorem flushed_eq (c : Dev nD) (t : Fin cfg0.N) :
    (dat0 V c).flushed 2 t = ((cfg0.win 2).blk t).view.read (Elt F) (Propagation.scaled (F := F) (V c main_v37) (V c main_v29)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  obtain ⟨e0, e1, e2, e3, e4, e5⟩ := idx_facts t
  funext j
  have hj0 : (j 0).val < 10000 := (j 0).isLt
  have hj1 : (j 1).val < 64 := (j 1).isLt
  show k0_pay1 (iblk0 V c 0 t) (iblk0 V c 1 t) j = Propagation.scaled (F := F) (V c main_v37) (V c main_v29) (((cfg0.win 2).blk t).view.emb j)
  have hN : cfg0.N = 125 := N_0
  have ht : t.val < 125 := lt_of_lt_of_eq t.isLt hN
  -- the weight's place in its block, and the element's and the weight's places in their arrays
  let k : S10000x1.Idx := fun a => match a with
    | ⟨0, _⟩ => ⟨(j 0).val, hj0⟩
    | ⟨1, _⟩ => ⟨0, Nat.one_pos⟩
  let k' : S1250000x1.Idx := fun a => match a with
    | ⟨0, _⟩ => ⟨t.val * 10000 + (j 0).val, by show t.val * 10000 + (j 0).val < 1250000; omega⟩
    | ⟨1, _⟩ => ⟨0, Nat.one_pos⟩
  have h2 : ((((cfg0.win 2).blk t).view.emb j) 0).val = t.val * 10000 + (j 0).val := by
    show win0_2.index t (0 : Fin 2) * 10000 + 1 * (j 0).val = _
    rw [e4]; omega
  refine (pay_apply (iblk0 V c 0 t) (iblk0 V c 1 t) j k rfl rfl).trans ?_
  refine Eq.trans ?_ (scaled_apply (V c main_v37) (V c main_v29) (((cfg0.win 2).blk t).view.emb j) k' h2.symm rfl).symm
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; rw [e0, e4]
    | ⟨1, _⟩ => show win0_0.index t (1 : Fin 2) * 64 + 1 * (j 1).val = win0_2.index t (1 : Fin 2) * 64 + 1 * (j 1).val; rw [e1, e5]
  have h1 : ((cfg0.win 1).blk t).view.emb k = k' := by
    funext a; apply Fin.ext
    match a with
    | ⟨0, _⟩ => show win0_1.index t (0 : Fin 2) * 10000 + 1 * (j 0).val = t.val * 10000 + (j 0).val; rw [e2]; omega
    | ⟨1, _⟩ => show win0_1.index t (1 : Fin 2) * 1 + 1 * 0 = 0; rw [e3]
  show FloatOps.mulf (V c main_v37 (((cfg0.win 0).blk t).view.emb j)) (V c main_v29 (((cfg0.win 1).blk t).view.emb k)) = _
  rw [h0, h1]

/-- A row of the output lies in block `t` when it lies in that block's range of rows. -/
theorem mem_blk (t : Fin cfg0.N) (i : S1250000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v38).slice (win0_2.rect t)).set ↔ _
  rw [View.set_slice_whole, Rect.mem_set_unit]
  exact Iff.rfl

/-- Every element of the output is written: row `r` by the point `r / 10000`. -/
theorem cover (i : S1250000x64.Idx) : ∃ t : Fin cfg0.N, (cfg0.win 2).flush t = true ∧ i ∈ ((cfg0.win 2).blk t).view.set := by
  have hi0 : (i 0).val < 1250000 := (i 0).isLt
  have hi1 : (i 1).val < 64 := (i 1).isLt
  have hN : cfg0.N = 125 := N_0
  have hlt : (i 0).val / 10000 < cfg0.N := by rw [hN]; omega
  obtain ⟨e0, e1, e2, e3, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]; omega

/-- The output array after the call: the travelling rows, each scaled by its edge's weight. -/
theorem final (c : Dev nD) : (dat0 V c).arrAt 2 cfg0.N = Propagation.scaled (F := F) (V c main_v37) (V c main_v29) :=
  (dat0 V c).arrAt_eq_of_cover 2 (Propagation.scaled (F := F) (V c main_v37) (V c main_v29)) (fun t _ => flushed_eq V c t) cover

end Cert.KernelIdeal.Scale0

end
-- ==== Proof.Add1.lean ====
/-
  The running sum after hop 1: what the adding call leaves in its output array, as ONE function of the two arrays it reads.

  The call walks the 150000 nodes in 30 blocks of 5000 rows. At block `t` it loads rows `5000 t … 5000 t + 4999` (all 64 features) of the
  running sum and of the hop's result, adds them entry by entry, and writes the block back to the same rows of the output. A
  block's element `(r, f)` is therefore element `(5000 t + r, f)` of the sum of the two arrays, the blocks cover every row, and
  the output array ends holding that sum whatever it held before.
-/
import proofs.«110621_j80556406604525_1_alg».proof.Proof.Gen.KernelIdeal.Frame
import Idealize.ShloMosaic.Lib.Pipeline.Value

noncomputable section

namespace Cert.KernelIdeal.Add1

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- What the body stores: the two loaded blocks added entry by entry. -/
theorem pay_eq (x0 x1 : Vec F S5000x64 .f32) : k1_pay1 x0 x1 = addf x0 x1 := by
  unfold k1_pay1
  show addf (shapeCast S5000x64 x0 shapeCasts_S5000x64_S5000x64) (shapeCast S5000x64 x1 shapeCasts_S5000x64_S5000x64) = _
  rw [shapeCast_self, shapeCast_self]

/-- Every window of the call moves with the grid point: block `t` along the rows, the one block along the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the sum of the two whole arrays. -/
theorem flushed_eq (c : Dev nD) (t : Fin cfg1.N) :
    (dat1 V c).flushed 2 t = ((cfg1.win 2).blk t).view.read (Elt F) (addf (V c main_v30) (V c main_v41)) := by
  show (cfg1.win 2).cut (grid1.coords t) ((dat1 V c).after 2 t) = _
  rw [after1_2]
  unfold out1_2
  rw [View.canon_unit_zero hz]
  simp only [View.ld_unit_zero (S := S5000x64) hz]
  rw [pay_eq]
  obtain ⟨e0, e1, e2, e3, e4, e5⟩ := idx_facts t
  funext j
  show FloatOps.addf (V c main_v30 (((cfg1.win 0).blk t).view.emb j)) (V c main_v41 (((cfg1.win 1).blk t).view.emb j))
    = FloatOps.addf (V c main_v30 (((cfg1.win 2).blk t).view.emb j)) (V c main_v41 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 64 + 1 * (j 1).val = win1_2.index t (1 : Fin 2) * 64 + 1 * (j 1).val; rw [e1, e5]
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; rw [e2, e4]
    | ⟨1, _⟩ => show win1_1.index t (1 : Fin 2) * 64 + 1 * (j 1).val = win1_2.index t (1 : Fin 2) * 64 + 1 * (j 1).val; rw [e3, e5]
  rw [h0, h1]

/-- A row of the output lies in block `t` when it lies in that block's range of rows. -/
theorem mem_blk (t : Fin cfg1.N) (i : S150000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v42).slice (win1_2.rect t)).set ↔ _
  rw [View.set_slice_whole, Rect.mem_set_unit]
  exact Iff.rfl

/-- Every element of the output is written: row `r` by the point `r / 5000`. -/
theorem cover (i : S150000x64.Idx) : ∃ t : Fin cfg1.N, (cfg1.win 2).flush t = true ∧ i ∈ ((cfg1.win 2).blk t).view.set := by
  have hi0 : (i 0).val < 150000 := (i 0).isLt
  have hi1 : (i 1).val < 64 := (i 1).isLt
  have hN : cfg1.N = 30 := N_1
  have hlt : (i 0).val / 5000 < cfg1.N := by rw [hN]; omega
  obtain ⟨e0, e1, e2, e3, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 64 ≤ (i 1).val ∧ (i 1).val < win1_2.index ⟨(i 0).val / 5000, hlt⟩ (1 : Fin 2) * 64 + 64
    rw [e5]; omega

/-- The output array after the call: the two arrays added. -/
theorem final (c : Dev nD) : (dat1 V c).arrAt 2 cfg1.N = addf (V c main_v30) (V c main_v41) :=
  (dat1 V c).arrAt_eq_of_cover 2 (addf (V c main_v30) (V c main_v41)) (fun t _ => flushed_eq V c t) cover

end Cert.KernelIdeal.Add1

end
-- ==== Proof.Scale2.lean ====
/-
  Hop 2's messages: what the scaling call leaves in its output array, as ONE function of the two arrays it reads.

  The call walks the 1250000 edges in 125 blocks of 10000 rows. At block `t` it loads rows `10000 t … 10000 t + 9999` of the
  travelling rows (all 64 features) and of the one-column table of weights, multiplies every feature of a row by that row's weight, and
  writes the block back to the same rows of the output. A block's element `(r, f)` is therefore element `(10000 t + r, f)` of
  `Propagation.scaled x w`, the blocks cover every row, and the output array ends holding `Propagation.scaled x w` whatever it held before.
-/
import proofs.«110621_j80556406604525_1_alg».proof.Proof.Gen.KernelIdeal.Frame
import proofs.«110621_j80556406604525_1_alg».proof.Proof.Propagation
import Idealize.ShloMosaic.Lib.Pipeline.Value

noncomputable section

namespace Cert.KernelIdeal.Scale2

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One element of what the body stores: the row's entry times the row's weight. -/
theorem pay_apply (x0 : Vec F S10000x64 .f32) (x1 : Vec F S10000x1 .f32) (j : S10000x64.Idx) (k : S10000x1.Idx)
    (hk0 : (k 0).val = (j 0).val) (hk1 : (k 1).val = 0) :
    k2_pay1 x0 x1 j = FloatOps.mulf (x0 j) (x1 k) := by
  unfold k2_pay1
  show FloatOps.mulf (shapeCast S10000x64 x0 shapeCasts_S10000x64_S10000x64 j)
    (broadcastTo S10000x64 (shapeCast S10000x1 x1 shapeCasts_S10000x1_S10000x1) broadcasts_S10000x1_S10000x64 j) = _
  rw [shapeCast_self, shapeCast_self]
  rw [broadcastTo_apply x1 broadcasts_S10000x1_S10000x64 j k (fun a => by
    match a with
    | ⟨0, _⟩ => show (k 0).val = if (10000 : Nat) = 1 then 0 else (j 0).val; rw [if_neg (by decide)]; exact hk0
    | ⟨1, _⟩ => show (k 1).val = if (1 : Nat) = 1 then 0 else (j 1).val; rw [if_pos rfl]; exact hk1)]

/-- One element of the whole array of messages: the same product, at the array's own row. -/
theorem scaled_apply (x : FVec F S1250000x64 .f32) (w : FVec F S1250000x1 .f32) (i : S1250000x64.Idx) (k : S1250000x1.Idx)
    (hk0 : (k 0).val = (i 0).val) (hk1 : (k 1).val = 0) :
    Propagation.scaled (F := F) x w i = FloatOps.mulf (x i) (w k) := by
  unfold Propagation.scaled
  show FloatOps.mulf (x i) (broadcastInDim S1250000x64 ![0, 1] Propagation.bcast_S1250000x1_S1250000x64_0_1 w i) = _
  rw [broadcastInDim_apply ![0, 1] Propagation.bcast_S1250000x1_S1250000x64_0_1 w i k (fun a => by
    match a with
    | ⟨0, _⟩ => show (k 0).val = if (1250000 : Nat) = 1 then 0 else (i 0).val; rw [if_neg (by decide)]; exact hk0
    | ⟨1, _⟩ => show (k 1).val = if (1 : Nat) = 1 then 0 else (i 1).val; rw [if_pos rfl]; exact hk1)]

/-- Every window of the call moves with the grid point: block `t` along the rows, the one block along the columns. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole array of messages. -/
theorem flushed_eq (c : Dev nD) (t : Fin cfg2.N) :
    (dat2 V c).flushed 2 t = ((cfg2.win 2).blk t).view.read (Elt F) (Propagation.scaled (F := F) (V c main_v49) (V c main_v29)) := by
  show (cfg2.win 2).cut (grid2.coords t) ((dat2 V c).after 2 t) = _
  rw [after2_2]
  unfold out2_2
  rw [View.canon_unit_zero hz]
  simp only [View.ld_unit_zero (S := S10000x64) hz, View.ld_unit_zero (S := S10000x1) hz]
  obtain ⟨e0, e1, e2, e3, e4, e5⟩ := idx_facts t
  funext j
  have hj0 : (j 0).val < 10000 := (j 0).isLt
  have hj1 : (j 1).val < 64 := (j 1).isLt
  show k2_pay1 (iblk2 V c 0 t) (iblk2 V c 1 t) j = Propagation.scaled (F := F) (V c main_v49) (V c main_v29) (((cfg2.win 2).blk t).view.emb j)
  have hN : cfg2.N = 125 := N_2
  have ht : t.val < 125 := lt_of_lt_of_eq t.isLt hN
  -- the weight's place in its block, and the element's and the weight's places in their arrays
  let k : S10000x1.Idx := fun a => match a with
    | ⟨0, _⟩ => ⟨(j 0).val, hj0⟩
    | ⟨1, _⟩ => ⟨0, Nat.one_pos⟩
  let k' : S1250000x1.Idx := fun a => match a with
    | ⟨0, _⟩ => ⟨t.val * 10000 + (j 0).val, by show t.val * 10000 + (j 0).val < 1250000; omega⟩
    | ⟨1, _⟩ => ⟨0, Nat.one_pos⟩
  have h2 : ((((cfg2.win 2).blk t).view.emb j) 0).val = t.val * 10000 + (j 0).val := by
    show win2_2.index t (0 : Fin 2) * 10000 + 1 * (j 0).val = _
    rw [e4]; omega
  refine (pay_apply (iblk2 V c 0 t) (iblk2 V c 1 t) j k rfl rfl).trans ?_
  refine Eq.trans ?_ (scaled_apply (V c main_v49) (V c main_v29) (((cfg2.win 2).blk t).view.emb j) k' h2.symm rfl).symm
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; rw [e0, e4]
    | ⟨1, _⟩ => show win2_0.index t (1 : Fin 2) * 64 + 1 * (j 1).val = win2_2.index t (1 : Fin 2) * 64 + 1 * (j 1).val; rw [e1, e5]
  have h1 : ((cfg2.win 1).blk t).view.emb k = k' := by
    funext a; apply Fin.ext
    match a with
    | ⟨0, _⟩ => show win2_1.index t (0 : Fin 2) * 10000 + 1 * (j 0).val = t.val * 10000 + (j 0).val; rw [e2]; omega
    | ⟨1, _⟩ => show win2_1.index t (1 : Fin 2) * 1 + 1 * 0 = 0; rw [e3]
  show FloatOps.mulf (V c main_v49 (((cfg2.win 0).blk t).view.emb j)) (V c main_v29 (((cfg2.win 1).blk t).view.emb k)) = _
  rw [h0, h1]

/-- A row of the output lies in block `t` when it lies in that block's range of rows. -/
theorem mem_blk (t : Fin cfg2.N) (i : S1250000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v50).slice (win2_2.rect t)).set ↔ _
  rw [View.set_slice_whole, Rect.mem_set_unit]
  exact Iff.rfl

/-- Every element of the output is written: row `r` by the point `r / 10000`. -/
theorem cover (i : S1250000x64.Idx) : ∃ t : Fin cfg2.N, (cfg2.win 2).flush t = true ∧ i ∈ ((cfg2.win 2).blk t).view.set := by
  have hi0 : (i 0).val < 1250000 := (i 0).isLt
  have hi1 : (i 1).val < 64 := (i 1).isLt
  have hN : cfg2.N = 125 := N_2
  have hlt : (i 0).val / 10000 < cfg2.N := by rw [hN]; omega
  obtain ⟨e0, e1, e2, e3, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 64 ≤ (i 1).val ∧ (i 1).val < win2_2.index ⟨(i 0).val / 10000, hlt⟩ (1 : Fin 2) * 64 + 64
    rw [e5]; omega

/-- The output array after the call: the travelling rows, each scaled by its edge's weight. -/
theorem final (c : Dev nD) : (dat2 V c).arrAt 2 cfg2.N = Propagation.scaled (F := F) (V c main_v49) (V c main_v29) :=
  (dat2 V c).arrAt_eq_of_cover 2 (Propagation.scaled (F := F) (V c main_v49) (V c main_v29)) (fun t _ => flushed_eq V c t) cover

end Cert.KernelIdeal.Scale2

end
-- ==== Proof.Add3.lean ====
/-
  The running sum after hop 2: what the adding call leaves in its output array, as ONE function of the two arrays it reads.

  The call walks the 150000 nodes in 30 blocks of 5000 rows. At block `t` it loads rows `5000 t … 5000 t + 4999` (all 64 features) of the
  running sum and of the hop's result, adds them entry by entry, and writes the block back to the same rows of the output. A
  block's element `(r, f)` is therefore element `(5000 t + r, f)` of the sum of the two arrays, the blocks cover every row, and
  the output array ends holding that sum whatever it held before.
-/
import proofs.«110621_j80556406604525_1_alg».proof.Proof.Gen.KernelIdeal.Frame
import Idealize.ShloMosaic.Lib.Pipeline.Value

noncomputable section

namespace Cert.KernelIdeal.Add3

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- What the body stores: the two loaded blocks added entry by entry. -/
theorem pay_eq (x0 x1 : Vec F S5000x64 .f32) : k3_pay1 x0 x1 = addf x0 x1 := by
  unfold k3_pay1
  show addf (shapeCast S5000x64 x0 shapeCasts_S5000x64_S5000x64) (shapeCast S5000x64 x1 shapeCasts_S5000x64_S5000x64) = _
  rw [shapeCast_self, shapeCast_self]

/-- Every window of the call moves with the grid point: block `t` along the rows, the one block along the columns. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the sum of the two whole arrays. -/
theorem flushed_eq (c : Dev nD) (t : Fin cfg3.N) :
    (dat3 V c).flushed 2 t = ((cfg3.win 2).blk t).view.read (Elt F) (addf (V c main_v42) (V c main_v53)) := by
  show (cfg3.win 2).cut (grid3.coords t) ((dat3 V c).after 2 t) = _
  rw [after3_2]
  unfold out3_2
  rw [View.canon_unit_zero hz]
  simp only [View.ld_unit_zero (S := S5000x64) hz]
  rw [pay_eq]
  obtain ⟨e0, e1, e2, e3, e4, e5⟩ := idx_facts t
  funext j
  show FloatOps.addf (V c main_v42 (((cfg3.win 0).blk t).view.emb j)) (V c main_v53 (((cfg3.win 1).blk t).view.emb j))
    = FloatOps.addf (V c main_v42 (((cfg3.win 2).blk t).view.emb j)) (V c main_v53 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; rw [e0, e4]
    | ⟨1, _⟩ => show win3_0.index t (1 : Fin 2) * 64 + 1 * (j 1).val = win3_2.index t (1 : Fin 2) * 64 + 1 * (j 1).val; rw [e1, e5]
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; rw [e2, e4]
    | ⟨1, _⟩ => show win3_1.index t (1 : Fin 2) * 64 + 1 * (j 1).val = win3_2.index t (1 : Fin 2) * 64 + 1 * (j 1).val; rw [e3, e5]
  rw [h0, h1]

/-- A row of the output lies in block `t` when it lies in that block's range of rows. -/
theorem mem_blk (t : Fin cfg3.N) (i : S150000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v54).slice (win3_2.rect t)).set ↔ _
  rw [View.set_slice_whole, Rect.mem_set_unit]
  exact Iff.rfl

/-- Every element of the output is written: row `r` by the point `r / 5000`. -/
theorem cover (i : S150000x64.Idx) : ∃ t : Fin cfg3.N, (cfg3.win 2).flush t = true ∧ i ∈ ((cfg3.win 2).blk t).view.set := by
  have hi0 : (i 0).val < 150000 := (i 0).isLt
  have hi1 : (i 1).val < 64 := (i 1).isLt
  have hN : cfg3.N = 30 := N_3
  have hlt : (i 0).val / 5000 < cfg3.N := by rw [hN]; omega
  obtain ⟨e0, e1, e2, e3, e4, e5⟩ := idx_facts ⟨(i 0).val / 5000, hlt⟩
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ (1 : Fin 2) * 64 ≤ (i 1).val ∧ (i 1).val < win3_2.index ⟨(i 0).val / 5000, hlt⟩ (1 : Fin 2) * 64 + 64
    rw [e5]; omega

/-- The output array after the call: the two arrays added. -/
theorem final (c : Dev nD) : (dat3 V c).arrAt 2 cfg3.N = addf (V c main_v42) (V c main_v53) :=
  (dat3 V c).arrAt_eq_of_cover 2 (addf (V c main_v42) (V c main_v53)) (fun t _ => flushed_eq V c t) cover

end Cert.KernelIdeal.Add3

end
-- ==== Proof.Scale4.lean ====
/-
  Hop 3's messages: what the scaling call leaves in its output array, as ONE function of the two arrays it reads.

  The call walks the 1250000 edges in 125 blocks of 10000 rows. At block `t` it loads rows `10000 t … 10000 t + 9999` of the
  travelling rows (all 64 features) and of the one-column table of weights, multiplies every feature of a row by that row's weight, and
  writes the block back to the same rows of the output. A block's element `(r, f)` is therefore element `(10000 t + r, f)` of
  `Propagation.scaled x w`, the blocks cover every row, and the output array ends holding `Propagation.scaled x w` whatever it held before.
-/
import proofs.«110621_j80556406604525_1_alg».proof.Proof.Gen.KernelIdeal.Frame
import proofs.«110621_j80556406604525_1_alg».proof.Proof.Propagation
import Idealize.ShloMosaic.Lib.Pipeline.Value

noncomputable section

namespace Cert.KernelIdeal.Scale4

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One element of what the body stores: the row's entry times the row's weight. -/
theorem pay_apply (x0 : Vec F S10000x64 .f32) (x1 : Vec F S10000x1 .f32) (j : S10000x64.Idx) (k : S10000x1.Idx)
    (hk0 : (k 0).val = (j 0).val) (hk1 : (k 1).val = 0) :
    k4_pay1 x0 x1 j = FloatOps.mulf (x0 j) (x1 k) := by
  unfold k4_pay1
  show FloatOps.mulf (shapeCast S10000x64 x0 shapeCasts_S10000x64_S10000x64 j)
    (broadcastTo S10000x64 (shapeCast S10000x1 x1 shapeCasts_S10000x1_S10000x1) broadcasts_S10000x1_S10000x64 j) = _
  rw [shapeCast_self, shapeCast_self]
  rw [broadcastTo_apply x1 broadcasts_S10000x1_S10000x64 j k (fun a => by
    match a with
    | ⟨0, _⟩ => show (k 0).val = if (10000 : Nat) = 1 then 0 else (j 0).val; rw [if_neg (by decide)]; exact hk0
    | ⟨1, _⟩ => show (k 1).val = if (1 : Nat) = 1 then 0 else (j 1).val; rw [if_pos rfl]; exact hk1)]

/-- One element of the whole array of messages: the same product, at the array's own row. -/
theorem scaled_apply (x : FVec F S1250000x64 .f32) (w : FVec F S1250000x1 .f32) (i : S1250000x64.Idx) (k : S1250000x1.Idx)
    (hk0 : (k 0).val = (i 0).val) (hk1 : (k 1).val = 0) :
    Propagation.scaled (F := F) x w i = FloatOps.mulf (x i) (w k) := by
  unfold Propagation.scaled
  show FloatOps.mulf (x i) (broadcastInDim S1250000x64 ![0, 1] Propagation.bcast_S1250000x1_S1250000x64_0_1 w i) = _
  rw [broadcastInDim_apply ![0, 1] Propagation.bcast_S1250000x1_S1250000x64_0_1 w i k (fun a => by
    match a with
    | ⟨0, _⟩ => show (k 0).val = if (1250000 : Nat) = 1 then 0 else (i 0).val; rw [if_neg (by decide)]; exact hk0
    | ⟨1, _⟩ => show (k 1).val = if (1 : Nat) = 1 then 0 else (i 1).val; rw [if_pos rfl]; exact hk1)]

/-- Every window of the call moves with the grid point: block `t` along the rows, the one block along the columns. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole array of messages. -/
theorem flushed_eq (c : Dev nD) (t : Fin cfg4.N) :
    (dat4 V c).flushed 2 t = ((cfg4.win 2).blk t).view.read (Elt F) (Propagation.scaled (F := F) (V c main_v61) (V c main_v29)) := by
  show (cfg4.win 2).cut (grid4.coords t) ((dat4 V c).after 2 t) = _
  rw [after4_2]
  unfold out4_2
  rw [View.canon_unit_zero hz]
  simp only [View.ld_unit_zero (S := S10000x64) hz, View.ld_unit_zero (S := S10000x1) hz]
  obtain ⟨e0, e1, e2, e3, e4, e5⟩ := idx_facts t
  funext j
  have hj0 : (j 0).val < 10000 := (j 0).isLt
  have hj1 : (j 1).val < 64 := (j 1).isLt
  show k4_pay1 (iblk4 V c 0 t) (iblk4 V c 1 t) j = Propagation.scaled (F := F) (V c main_v61) (V c main_v29) (((cfg4.win 2).blk t).view.emb j)
  have hN : cfg4.N = 125 := N_4
  have ht : t.val < 125 := lt_of_lt_of_eq t.isLt hN
  -- the weight's place in its block, and the element's and the weight's places in their arrays
  let k : S10000x1.Idx := fun a => match a with
    | ⟨0, _⟩ => ⟨(j 0).val, hj0⟩
    | ⟨1, _⟩ => ⟨0, Nat.one_pos⟩
  let k' : S1250000x1.Idx := fun a => match a with
    | ⟨0, _⟩ => ⟨t.val * 10000 + (j 0).val, by show t.val * 10000 + (j 0).val < 1250000; omega⟩
    | ⟨1, _⟩ => ⟨0, Nat.one_pos⟩
  have h2 : ((((cfg4.win 2).blk t).view.emb j) 0).val = t.val * 10000 + (j 0).val := by
    show win4_2.index t (0 : Fin 2) * 10000 + 1 * (j 0).val = _
    rw [e4]; omega
  refine (pay_apply (iblk4 V c 0 t) (iblk4 V c 1 t) j k rfl rfl).trans ?_
  refine Eq.trans ?_ (scaled_apply (V c main_v61) (V c main_v29) (((cfg4.win 2).blk t).view.emb j) k' h2.symm rfl).symm
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; rw [e0, e4]
    | ⟨1, _⟩ => show win4_0.index t (1 : Fin 2) * 64 + 1 * (j 1).val = win4_2.index t (1 : Fin 2) * 64 + 1 * (j 1).val; rw [e1, e5]
  have h1 : ((cfg4.win 1).blk t).view.emb k = k' := by
    funext a; apply Fin.ext
    match a with
    | ⟨0, _⟩ => show win4_1.index t (0 : Fin 2) * 10000 + 1 * (j 0).val = t.val * 10000 + (j 0).val; rw [e2]; omega
    | ⟨1, _⟩ => show win4_1.index t (1 : Fin 2) * 1 + 1 * 0 = 0; rw [e3]
  show FloatOps.mulf (V c main_v61 (((cfg4.win 0).blk t).view.emb j)) (V c main_v29 (((cfg4.win 1).blk t).view.emb k)) = _
  rw [h0, h1]

/-- A row of the output lies in block `t` when it lies in that block's range of rows. -/
theorem mem_blk (t : Fin cfg4.N) (i : S1250000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

/-- Every element of the output is written: row `r` by the point `r / 10000`. -/
theorem cover (i : S1250000x64.Idx) : ∃ t : Fin cfg4.N, (cfg4.win 2).flush t = true ∧ i ∈ ((cfg4.win 2).blk t).view.set := by
  have hi0 : (i 0).val < 1250000 := (i 0).isLt
  have hi1 : (i 1).val < 64 := (i 1).isLt
  have hN : cfg4.N = 125 := N_4
  have hlt : (i 0).val / 10000 < cfg4.N := by rw [hN]; omega
  obtain ⟨e0, e1, e2, e3, e4, e5⟩ := idx_facts ⟨(i 0).val / 10000, hlt⟩
  refine ⟨⟨(i 0).val / 10000, hlt⟩, flush4_2 _, ?_⟩
  rw [mem_blk]
  intro a
  match a with
  | ⟨0, _⟩ =>
    show win4_2.index ⟨(i 0).val / 10000, hlt⟩ (0 : Fin 2) * 10000 ≤ (i 0).val ∧ (i 0).val < win4_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hlt⟩ (1 : Fin 2) * 64 ≤ (i 1).val ∧ (i 1).val < win4_2.index ⟨(i 0).val / 10000, hlt⟩ (1 : Fin 2) * 64 + 64
    rw [e5]; omega

/-- The output array after the call: the travelling rows, each scaled by its edge's weight. -/
theorem final (c : Dev nD) : (dat4 V c).arrAt 2 cfg4.N = Propagation.scaled (F := F) (V c main_v61) (V c main_v29) :=
  (dat4 V c).arrAt_eq_of_cover 2 (Propagation.scaled (F := F) (V c main_v61) (V c main_v29)) (fun t _ => flushed_eq V c t) cover

end Cert.KernelIdeal.Scale4

end
-- ==== Proof.Add5.lean ====
/-
  The running sum after hop 3: what the adding call leaves in its output array, as ONE function of the two arrays it reads.

  The call walks the 150000 nodes in 30 blocks of 5000 rows. At block `t` it loads rows `5000 t … 5000 t + 4999` (all 64 features) of the
  running sum and of the hop's result, adds them entry by entry, and writes the block back to the same rows of the output. A
  block's element `(r, f)` is therefore element `(5000 t + r, f)` of the sum of the two arrays, the blocks cover every row, and
  the output array ends holding that sum whatever it held before.
-/
import proofs.«110621_j80556406604525_1_alg».proof.Proof.Gen.KernelIdeal.Frame
import Idealize.ShloMosaic.Lib.Pipeline.Value

noncomputable section

namespace Cert.KernelIdeal.Add5

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- What the body stores: the two loaded blocks added entry by entry. -/
theorem pay_eq (x0 x1 : Vec F S5000x64 .f32) : k5_pay1 x0 x1 = addf x0 x1 := by
  unfold k5_pay1
  show addf (shapeCast S5000x64 x0 shapeCasts_S5000x64_S5000x64) (shapeCast S5000x64 x1 shapeCasts_S5000x64_S5000x64) = _
  rw [shapeCast_self, shapeCast_self]

/-- Every window of the call moves with the grid point: block `t` along the rows, the one block along the columns. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the sum of the two whole arrays. -/
theorem flushed_eq (c : Dev nD) (t : Fin cfg5.N) :
    (dat5 V c).flushed 2 t = ((cfg5.win 2).blk t).view.read (Elt F) (addf (V c main_v54) (V c main_v65)) := by
  show (cfg5.win 2).cut (grid5.coords t) ((dat5 V c).after 2 t) = _
  rw [after5_2]
  unfold out5_2
  rw [View.canon_unit_zero hz]
  simp only [View.ld_unit_zero (S := S5000x64) hz]
  rw [pay_eq]
  obtain ⟨e0, e1, e2, e3, e4, e5⟩ := idx_facts t
  funext j
  show FloatOps.addf (V c main_v54 (((cfg5.win 0).blk t).view.emb j)) (V c main_v65 (((cfg5.win 1).blk t).view.emb j))
    = FloatOps.addf (V c main_v54 (((cfg5.win 2).blk t).view.emb j)) (V c main_v65 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; rw [e0, e4]
    | ⟨1, _⟩ => show win5_0.index t (1 : Fin 2) * 64 + 1 * (j 1).val = win5_2.index t (1 : Fin 2) * 64 + 1 * (j 1).val; rw [e1, e5]
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; rw [e2, e4]
    | ⟨1, _⟩ => show win5_1.index t (1 : Fin 2) * 64 + 1 * (j 1).val = win5_2.index t (1 : Fin 2) * 64 + 1 * (j 1).val; rw [e3, e5]
  rw [h0, h1]

/-- A row of the output lies in block `t` when it lies in that block's range of rows. -/
theorem mem_blk (t : Fin cfg5.N) (i : S150000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v66).slice (win5_2.rect t)).set ↔ _
  rw [View.set_slice_whole, Rect.mem_set_unit]
  exact Iff.rfl

/-- Every element of the output is written: row `r` by the point `r / 5000`. -/
theorem cover (i : S150000x64.Idx) : ∃ t : Fin cfg5.N, (cfg5.win 2).flush t = true ∧ i ∈ ((cfg5.win 2).blk t).view.set := by
  have hi0 : (i 0).val < 150000 := (i 0).isLt
  have hi1 : (i 1).val < 64 := (i 1).isLt
  have hN : cfg5.N = 30 := N_5
  have hlt : (i 0).val / 5000 < cfg5.N := by rw [hN]; omega
  obtain ⟨e0, e1, e2, e3, e4, e5⟩ := idx_facts ⟨(i 0).val / 5000, hlt⟩
  refine ⟨⟨(i 0).val / 5000, hlt⟩, flush5_2 _, ?_⟩
  rw [mem_blk]
  intro a
  match a with
  | ⟨0, _⟩ =>
    show win5_2.index ⟨(i 0).val / 5000, hlt⟩ (0 : Fin 2) * 5000 ≤ (i 0).val ∧ (i 0).val < win5_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, hlt⟩ (1 : Fin 2) * 64 ≤ (i 1).val ∧ (i 1).val < win5_2.index ⟨(i 0).val / 5000, hlt⟩ (1 : Fin 2) * 64 + 64
    rw [e5]; omega

/-- The output array after the call: the two arrays added. -/
theorem final (c : Dev nD) : (dat5 V c).arrAt 2 cfg5.N = addf (V c main_v54) (V c main_v65) :=
  (dat5 V c).arrAt_eq_of_cover 2 (addf (V c main_v54) (V c main_v65)) (fun t _ => flushed_eq V c t) cover

end Cert.KernelIdeal.Add5

end
-- ==== Proof.Chain.lean ====
/-
  The idealized kernel's buffers, boundary by boundary, in the vocabulary of `Propagation`.

  Three arrays computed from the edge list alone — the edges' sources, their destinations, the one-column table of weights — are written
  before the first call and never again, so they hold the same values at every later boundary (`Graph`). Along them the run carries the
  previous hop's result and the running sum. Hop `n` is four segments:
    gather   (host)  the previous hop's rows that travel along the edges:      `sent e x`
    scale    (call)  each travelling row times its edge's weight:              `scaled (sent e x) (weightCol e)`
    scatter  (host)  the scaled rows added up at the edges' destinations:      `hop e x`
    add      (call)  the running sum plus the hop's result.
  A call's output array is read by its value lemma (`Scale*.final`, `Add*.final`) at the contents the call was entered with; a host
  stretch's result is its operations' functions of the contents before it; a buffer a segment does not write is read one boundary earlier.
  After hop 3 the last stretch divides the sum of the four arrays by four and cuts it into the users' rows and the items' rows.
-/
import proofs.«110621_j80556406604525_1_alg».proof.Proof.Entry
import proofs.«110621_j80556406604525_1_alg».proof.Proof.Scale0
import proofs.«110621_j80556406604525_1_alg».proof.Proof.Add1
import proofs.«110621_j80556406604525_1_alg».proof.Proof.Scale2
import proofs.«110621_j80556406604525_1_alg».proof.Proof.Add3
import proofs.«110621_j80556406604525_1_alg».proof.Proof.Scale4
import proofs.«110621_j80556406604525_1_alg».proof.Proof.Add5

noncomputable section

namespace Cert.KernelIdeal.Chain

open Idealize.ShloMosaic Idealize.ShloMosaic.TcCoe Idealize.SL.Sem
open Cert.KernelIdeal Cert.KernelIdeal.Gen Cert.KernelIdeal.Entry

variable {F : FTy → Type} [FloatOps F]
variable (m : (ℓ : Loc nD τ sig) → Buf (Elt F) ℓ) (ρ : Dev nD → PrngReg)

/-- The three arrays every hop reads that depend on the edge list alone, as one boundary's contents `W` hold them. -/
structure Graph (c : Dev nD) (W : Valuation τ sig (Elt F)) : Prop where
  src : W (Proc.devRef .tc main_v1) = Propagation.srcIds (F := F) (edges m c)
  dst : W (Proc.devRef .tc main_v3) = Propagation.dstIds (F := F) (edges m c)
  wgt : W (Proc.devRef .tc main_v29) = Propagation.weightCol (F := F) (edges m c)

/-- A stretch of host operations read at one buffer: its operations' functions of the contents before it (a buffer it does not
    write: those contents), then the fact about the contents before it. -/
macro "host_step" : tactic =>
  `(tactic| (dsimp only [W5, W7, W9, W11, W13, W15, hostOps1, hostOps2, hostOps3, hostOps4, hostOps5, hostOps6]; after_results))

/-! ## Arrays a call only reads -/

/-- The call reads this array and never writes it back: it holds after the call what it held before. -/
theorem read4 (c : Dev nD) : W4 m ρ c (Proc.devRef .tc main_v29) = W3 m ρ c (Proc.devRef .tc main_v29) :=
  (W4_arr m ρ c 1).trans (((dat0 (V3 m ρ) c).arrAt_in 1 rfl cfg0.N).trans (A_eq0 (V3 m ρ) c 1))

/-- The call reads this array and never writes it back: it holds after the call what it held before. -/
theorem read6 (c : Dev nD) : W6 m ρ c (Proc.devRef .tc main_v41) = W5 m ρ c (Proc.devRef .tc main_v41) :=
  (W6_arr m ρ c 1).trans (((dat1 (V5 m ρ) c).arrAt_in 1 rfl cfg1.N).trans (A_eq1 (V5 m ρ) c 1))

/-- The call reads this array and never writes it back: it holds after the call what it held before. -/
theorem read8 (c : Dev nD) : W8 m ρ c (Proc.devRef .tc main_v29) = W7 m ρ c (Proc.devRef .tc main_v29) :=
  (W8_arr m ρ c 1).trans (((dat2 (V7 m ρ) c).arrAt_in 1 rfl cfg2.N).trans (A_eq2 (V7 m ρ) c 1))

/-- The call reads this array and never writes it back: it holds after the call what it held before. -/
theorem read10 (c : Dev nD) : W10 m ρ c (Proc.devRef .tc main_v53) = W9 m ρ c (Proc.devRef .tc main_v53) :=
  (W10_arr m ρ c 1).trans (((dat3 (V9 m ρ) c).arrAt_in 1 rfl cfg3.N).trans (A_eq3 (V9 m ρ) c 1))

/-- The call reads this array and never writes it back: it holds after the call what it held before. -/
theorem read12 (c : Dev nD) : W12 m ρ c (Proc.devRef .tc main_v29) = W11 m ρ c (Proc.devRef .tc main_v29) :=
  (W12_arr m ρ c 1).trans (((dat4 (V11 m ρ) c).arrAt_in 1 rfl cfg4.N).trans (A_eq4 (V11 m ρ) c 1))

/-! ## Hop 1 -/

theorem graph3 (c : Dev nD) : Graph m c (W3 m ρ c) := ⟨src_ids m ρ c, dst_ids m ρ c, weight_col m ρ c⟩

theorem graph4 (c : Dev nD) : Graph m c (W4 m ρ c) :=
  ⟨(W4_of_ne m ρ c main_v1 (by decide)).trans (graph3 m ρ c).src, (W4_of_ne m ρ c main_v3 (by decide)).trans (graph3 m ρ c).dst,
   (read4 m ρ c).trans (graph3 m ρ c).wgt⟩

/-- Hop 1's messages. -/
theorem msg1 (c : Dev nD) : W4 m ρ c (Proc.devRef .tc main_v38)
    = Propagation.scaled (F := F) (Propagation.sent (F := F) (edges m c) (rows0 m c)) (Propagation.weightCol (F := F) (edges m c)) := by
  refine ((W4_arr m ρ c 2).trans (Scale0.final (V3 m ρ) c)).trans ?_
  show Propagation.scaled (F := F) (W3 m ρ c (Proc.devRef .tc main_v37)) (W3 m ρ c (Proc.devRef .tc main_v29)) = _
  rw [sent0, weight_col]

theorem start4 (c : Dev nD) : W4 m ρ c (Proc.devRef .tc main_v30) = rows0 m c :=
  (W4_of_ne m ρ c main_v30 (by decide)).trans (start_rows m ρ c)

theorem graph5 (c : Dev nD) : Graph m c (W5 m ρ c) :=
  ⟨by host_step; exact (graph4 m ρ c).src, by host_step; exact (graph4 m ρ c).dst, by host_step; exact (graph4 m ρ c).wgt⟩

theorem start5 (c : Dev nD) : W5 m ρ c (Proc.devRef .tc main_v30) = rows0 m c := by
  host_step; exact start4 m ρ c

/-- Hop 1's result. -/
theorem hop1 (c : Dev nD) : W5 m ρ c (Proc.devRef .tc main_v41) = rows1 m c := by
  host_step
  rw [(graph4 m ρ c).dst, msg1]
  rfl

theorem graph6 (c : Dev nD) : Graph m c (W6 m ρ c) :=
  ⟨(W6_of_ne m ρ c main_v1 (by decide)).trans (graph5 m ρ c).src, (W6_of_ne m ρ c main_v3 (by decide)).trans (graph5 m ρ c).dst,
   (W6_of_ne m ρ c main_v29 (by decide)).trans (graph5 m ρ c).wgt⟩

theorem hop1_6 (c : Dev nD) : W6 m ρ c (Proc.devRef .tc main_v41) = rows1 m c :=
  (read6 m ρ c).trans (hop1 m ρ c)

/-- The running sum after hop 1. -/
theorem sum1 (c : Dev nD) : W6 m ρ c (Proc.devRef .tc main_v42) = addf (rows0 m c) (rows1 m c) := by
  refine ((W6_arr m ρ c 2).trans (Add1.final (V5 m ρ) c)).trans ?_
  show addf (W5 m ρ c (Proc.devRef .tc main_v30)) (W5 m ρ c (Proc.devRef .tc main_v41)) = _
  rw [start5, hop1]

/-! ## Hop 2 -/

theorem graph7 (c : Dev nD) : Graph m c (W7 m ρ c) :=
  ⟨by host_step; exact (graph6 m ρ c).src, by host_step; exact (graph6 m ρ c).dst, by host_step; exact (graph6 m ρ c).wgt⟩

theorem sum1_7 (c : Dev nD) : W7 m ρ c (Proc.devRef .tc main_v42) = addf (rows0 m c) (rows1 m c) := by
  host_step; exact sum1 m ρ c

/-- Hop 1's rows that travel along the edges. -/
theorem sent1 (c : Dev nD) : W7 m ρ c (Proc.devRef .tc main_v49) = Propagation.sent (F := F) (edges m c) (rows1 m c) := by
  host_step
  rw [(graph6 m ρ c).src, hop1_6]
  rfl

theorem graph8 (c : Dev nD) : Graph m c (W8 m ρ c) :=
  ⟨(W8_of_ne m ρ c main_v1 (by decide)).trans (graph7 m ρ c).src, (W8_of_ne m ρ c main_v3 (by decide)).trans (graph7 m ρ c).dst,
   (read8 m ρ c).trans (graph7 m ρ c).wgt⟩

theorem sum1_8 (c : Dev nD) : W8 m ρ c (Proc.devRef .tc main_v42) = addf (rows0 m c) (rows1 m c) :=
  (W8_of_ne m ρ c main_v42 (by decide)).trans (sum1_7 m ρ c)

/-- Hop 2's messages. -/
theorem msg2 (c : Dev nD) : W8 m ρ c (Proc.devRef .tc main_v50)
    = Propagation.scaled (F := F) (Propagation.sent (F := F) (edges m c) (rows1 m c)) (Propagation.weightCol (F := F) (edges m c)) := by
  refine ((W8_arr m ρ c 2).trans (Scale2.final (V7 m ρ) c)).trans ?_
  show Propagation.scaled (F := F) (W7 m ρ c (Proc.devRef .tc main_v49)) (W7 m ρ c (Proc.devRef .tc main_v29)) = _
  rw [sent1, (graph7 m ρ c).wgt]

theorem graph9 (c : Dev nD) : Graph m c (W9 m ρ c) :=
  ⟨by host_step; exact (graph8 m ρ c).src, by host_step; exact (graph8 m ρ c).dst, by host_step; exact (graph8 m ρ c).wgt⟩

theorem sum1_9 (c : Dev nD) : W9 m ρ c (Proc.devRef .tc main_v42) = addf (rows0 m c) (rows1 m c) := by
  host_step; exact sum1_8 m ρ c

/-- Hop 2's result. -/
theorem hop2 (c : Dev nD) : W9 m ρ c (Proc.devRef .tc main_v53) = rows2 m c := by
  host_step
  rw [(graph8 m ρ c).dst, msg2]
  rfl

theorem graph10 (c : Dev nD) : Graph m c (W10 m ρ c) :=
  ⟨(W10_of_ne m ρ c main_v1 (by decide)).trans (graph9 m ρ c).src, (W10_of_ne m ρ c main_v3 (by decide)).trans (graph9 m ρ c).dst,
   (W10_of_ne m ρ c main_v29 (by decide)).trans (graph9 m ρ c).wgt⟩

theorem hop2_10 (c : Dev nD) : W10 m ρ c (Proc.devRef .tc main_v53) = rows2 m c :=
  (read10 m ρ c).trans (hop2 m ρ c)

/-- The running sum after hop 2. -/
theorem sum2 (c : Dev nD) : W10 m ρ c (Proc.devRef .tc main_v54) = addf (addf (rows0 m c) (rows1 m c)) (rows2 m c) := by
  refine ((W10_arr m ρ c 2).trans (Add3.final (V9 m ρ) c)).trans ?_
  show addf (W9 m ρ c (Proc.devRef .tc main_v42)) (W9 m ρ c (Proc.devRef .tc main_v53)) = _
  rw [sum1_9, hop2]

/-! ## Hop 3 -/

theorem graph11 (c : Dev nD) : Graph m c (W11 m ρ c) :=
  ⟨by host_step; exact (graph10 m ρ c).src, by host_step; exact (graph10 m ρ c).dst, by host_step; exact (graph10 m ρ c).wgt⟩

theorem sum2_11 (c : Dev nD) : W11 m ρ c (Proc.devRef .tc main_v54) = addf (addf (rows0 m c) (rows1 m c)) (rows2 m c) := by
  host_step; exact sum2 m ρ c

/-- Hop 2's rows that travel along the edges. -/
theorem sent2 (c : Dev nD) : W11 m ρ c (Proc.devRef .tc main_v61) = Propagation.sent (F := F) (edges m c) (rows2 m c) := by
  host_step
  rw [(graph10 m ρ c).src, hop2_10]
  rfl

theorem graph12 (c : Dev nD) : Graph m c (W12 m ρ c) :=
  ⟨(W12_of_ne m ρ c main_v1 (by decide)).trans (graph11 m ρ c).src, (W12_of_ne m ρ c main_v3 (by decide)).trans (graph11 m ρ c).dst,
   (read12 m ρ c).trans (graph11 m ρ c).wgt⟩

theorem sum2_12 (c : Dev nD) : W12 m ρ c (Proc.devRef .tc main_v54) = addf (addf (rows0 m c) (rows1 m c)) (rows2 m c) :=
  (W12_of_ne m ρ c main_v54 (by decide)).trans (sum2_11 m ρ c)

/-- Hop 3's messages. -/
theorem msg3 (c : Dev nD) : W12 m ρ c (Proc.devRef .tc main_v62)
    = Propagation.scaled (F := F) (Propagation.sent (F := F) (edges m c) (rows2 m c)) (Propagation.weightCol (F := F) (edges m c)) := by
  refine ((W12_arr m ρ c 2).trans (Scale4.final (V11 m ρ) c)).trans ?_
  show Propagation.scaled (F := F) (W11 m ρ c (Proc.devRef .tc main_v61)) (W11 m ρ c (Proc.devRef .tc main_v29)) = _
  rw [sent2, (graph11 m ρ c).wgt]

theorem sum2_13 (c : Dev nD) : W13 m ρ c (Proc.devRef .tc main_v54) = addf (addf (rows0 m c) (rows1 m c)) (rows2 m c) := by
  host_step; exact sum2_12 m ρ c

/-- Hop 3's result. -/
theorem hop3 (c : Dev nD) : W13 m ρ c (Proc.devRef .tc main_v65) = rows3 m c := by
  host_step
  rw [(graph12 m ρ c).dst, msg3]
  rfl

/-- The sum of the start array and its three hops. -/
theorem sum3 (c : Dev nD) : W14 m ρ c (Proc.devRef .tc main_v66) = addf (addf (addf (rows0 m c) (rows1 m c)) (rows2 m c)) (rows3 m c) := by
  refine ((W14_arr m ρ c 2).trans (Add5.final (V13 m ρ) c)).trans ?_
  show addf (W13 m ρ c (Proc.devRef .tc main_v54)) (W13 m ρ c (Proc.devRef .tc main_v65)) = _
  rw [sum2_13, hop3]

/-! ## The two results -/

/-- The users' rows of the mean. -/
theorem users_eq (c : Dev nD) : W15 m ρ c (Proc.devRef .tc main_v69)
    = Propagation.users (F := F) (m ((c : Thread nD τ).loc main_arg0)) (m ((c : Thread nD τ).loc main_arg1)) (m ((c : Thread nD τ).loc main_arg2)) := by
  host_step
  rw [sum3]
  rfl

/-- The items' rows of the mean. -/
theorem items_eq (c : Dev nD) : W15 m ρ c (Proc.devRef .tc main_v70)
    = Propagation.items (F := F) (m ((c : Thread nD τ).loc main_arg0)) (m ((c : Thread nD τ).loc main_arg1)) (m ((c : Thread nD τ).loc main_arg2)) := by
  host_step
  rw [sum3]
  rfl

end Cert.KernelIdeal.Chain

end
-- ==== Proof.lean ====
/-
  The certificate of LightGCN propagation: the kernel against its reference, equal as extended reals.

  Both programs compute, from the users' rows, the items' rows and an edge list, the mean of the stacked node array and of its first three
  hops (`Propagation.users`, `Propagation.items`); the kernel runs each hop's scaling of the travelling rows and each addition into the
  running sum as a call over blocks of rows, the reference as one array operation. Block by block a scaling call writes the product the
  reference's multiplication writes and an adding call the sum its addition writes, in the same order of operands, so the two results are
  one term of the arguments: no law of arithmetic is used, and the precondition that the inputs are finite is never opened.

    frames      the two kernels' by their generated frame certificates; the reference's by its run with the results dropped;
    preserves   the idealization rewrote nothing;
    algebraic   the idealized kernel's results are `Propagation.users` / `.items` of its arguments (`Results.run`, `Chain`), the
                reference's are the same functions of its own (`RefRun`, `RefSpec`), and the arguments agree.
-/
import proofs.«110621_j80556406604525_1_alg».proof.Defs
import proofs.«110621_j80556406604525_1_alg».proof.Proof.Gen.Kernel
import proofs.«110621_j80556406604525_1_alg».proof.Proof.Gen.Kernel.Skeleton
import proofs.«110621_j80556406604525_1_alg».proof.Proof.Gen.Kernel.Launch
import proofs.«110621_j80556406604525_1_alg».proof.Proof.Gen.Kernel.Points
import proofs.«110621_j80556406604525_1_alg».proof.Proof.Gen.Kernel.Frame
import proofs.«110621_j80556406604525_1_alg».proof.Proof.Gen.KernelIdeal
import proofs.«110621_j80556406604525_1_alg».proof.Proof.Gen.KernelIdeal.Skeleton
import proofs.«110621_j80556406604525_1_alg».proof.Proof.Gen.KernelIdeal.Launch
import proofs.«110621_j80556406604525_1_alg».proof.Proof.Gen.KernelIdeal.Points
import proofs.«110621_j80556406604525_1_alg».proof.Proof.Gen.KernelIdeal.Frame
import proofs.«110621_j80556406604525_1_alg».proof.Proof.Gen.ReferenceIdeal
import proofs.«110621_j80556406604525_1_alg».proof.Proof.RefRun
import proofs.«110621_j80556406604525_1_alg».proof.Proof.RefSpec
import proofs.«110621_j80556406604525_1_alg».proof.Proof.Results
import proofs.«110621_j80556406604525_1_alg».proof.Proof.Chain
import proofs.«110621_j80556406604525_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; its frame is that run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- Both programs end with the users' rows and the items' rows of the mean of the start array and its first three hops. -/
theorem algebraic : Cert.algebraic_KernelIdeal_ReferenceIdeal := by
  intro m ρ m' ρ' _ hagree
  refine ⟨fun c => Cert.KernelIdeal.Propagation.users (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)),
          fun c => Cert.KernelIdeal.Propagation.items (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Chain.users_eq m ρ c), (h c).2.1.trans (Cert.KernelIdeal.Chain.items_eq m ρ c), (h c).2.2⟩)
      (Cert.KernelIdeal.Results.run (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · rw [Cert.ReferenceIdeal.Spec.users_eq, (hagree c).1, (hagree c).2.1, (hagree c).2.2]
    · rw [Cert.ReferenceIdeal.Spec.items_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
